-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x90 : Shape := ⟨2, ![128, 90]⟩
abbrev S90 : Shape := ⟨1, ![90]⟩
abbrev S90x40 : Shape := ⟨2, ![90, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  reducesTo_S100000_S_d0 : S100000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x90 : S_.BroadcastsInDim S128x90 (![] : Fin 0 → Fin S128x90.rank)
  reducesTo_S128x90_S_d0_1 : S128x90.ReducesTo [0, 1] S_
  bcast_S_S90 : S_.BroadcastsInDim S90 (![] : Fin 0 → Fin S90.rank)
  reducesTo_S90_S_d0 : S90.ReducesTo [0] S_
  bcast_S_S90x40 : S_.BroadcastsInDim S90x40 (![] : Fin 0 → Fin S90x40.rank)
  reducesTo_S90x40_S_d0_1 : S90x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg12 : FVec F S128 .f32) (main_arg15 : FVec F S90x40 .f32) (main_arg16 : FVec F S40 .f32) (main_v63 : IVec S_ 1) (main_v67 : IVec S_ 1) : IVec S_ 1 :=
  let main_v68 : IVec S_ 1 := andi main_v63 main_v67
  let main_v69 : FVec F S90x40 .f32 := Host.absf main_arg15
  let main_cst_26 : FVec F S_ .f32 := constant S_ .f32 0x7F800000#32
  let main_v70 : FVec F S90x40 .f32 := broadcastInDim S90x40 ![] bcast_S_S90x40 main_cst_26
  let main_v71 : IVec S90x40 1 := cmpf .olt main_v69 main_v70
  let main_c_27 : IVec S_ 1 := constantI S_ 1 1#1
  let main_v72 : IVec S_ 1 := (fun x v => Host.reduce IntOp.andi x v reducesTo_S90x40_S_d0_1 h_S_) main_v71 main_c_27
  let main_v73 : IVec S_ 1 := andi main_v68 main_v72
  let main_v74 : FVec F S40 .f32 := Host.absf main_arg16
  let main_cst_28 : FVec F S_ .f32 := constant S_ .f32 0x7F800000#32
  let main_v75 : FVec F S40 .f32 := broadcastInDim S40 ![] bcast_S_S40 main_cst_28
  let main_v76 : IVec S40 1 := cmpf .olt main_v74 main_v75
  let main_c_29 : IVec S_ 1 := constantI S_ 1 1#1
  let main_v77 : IVec S_ 1 := (fun x v => Host.reduce IntOp.andi x v reducesTo_S40_S_d0 h_S_) main_v76 main_c_29
  let main_v78 : IVec S_ 1 := andi main_v73 main_v77
  let main_cst_30 : FVec F S_ .f32 := constant S_ .f32 0x00000000#32
  let main_v79 : FVec F S128 .f32 := broadcastInDim S128 ![] bcast_S_S128 main_cst_30
  let main_v80 : IVec S128 1 := cmpf .oge main_arg12 main_v79
  let main_c_31 : IVec S_ 1 := constantI S_ 1 1#1
  let main_v81 : IVec S_ 1 := (fun x v => Host.reduce IntOp.andi x v reducesTo_S128_S_d0 h_S_) main_v80 main_c_31
  let main_v82 : IVec S_ 1 := andi main_v78 main_v81
  main_v82

def fn_part3 {F : FTy → Type} [FloatOps F] (main_arg12 : FVec F S128 .f32) (main_arg13 : FVec F S128x90 .f32) (main_arg14 : FVec F S90 .f32) (main_arg15 : FVec F S90x40 .f32) (main_arg16 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x90 .f32 := Host.absf main_arg13
  let main_cst_22 : FVec F S_ .f32 := constant S_ .f32 0x7F800000#32
  let main_v60 : FVec F S128x90 .f32 := broadcastInDim S128x90 ![] bcast_S_S128x90 main_cst_22
  let main_v61 : IVec S128x90 1 := cmpf .olt main_v59 main_v60
  let main_c_23 : IVec S_ 1 := constantI S_ 1 1#1
  let main_v62 : IVec S_ 1 := (fun x v => Host.reduce IntOp.andi x v reducesTo_S128x90_S_d0_1 h_S_) main_v61 main_c_23
  let main_v63 : IVec S_ 1 := andi main_v58 main_v62
  let main_v64 : FVec F S90 .f32 := Host.absf main_arg14
  let main_cst_24 : FVec F S_ .f32 := constant S_ .f32 0x7F800000#32
  let main_v65 : FVec F S90 .f32 := broadcastInDim S90 ![] bcast_S_S90 main_cst_24
  let main_v66 : IVec S90 1 := cmpf .olt main_v64 main_v65
  let main_c_25 : IVec S_ 1 := constantI S_ 1 1#1
  let main_v67 : IVec S_ 1 := (fun x v => Host.reduce IntOp.andi x v reducesTo_S90_S_d0 h_S_) main_v66 main_c_25
  fn_part4 (F := F) main_arg12 main_arg15 main_arg16 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128x90 .f32) (main_arg14 : FVec F S90 .f32) (main_arg15 : FVec F S90x40 .f32) (main_arg16 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S64x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x90 .f32) (main_arg14 : FVec F S90 .f32) (main_arg15 : FVec F S90x40 .f32) (main_arg16 : FVec F S40 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x64 .f32) (main_arg1 : IVec S2x1600000 32) (main_arg2 : FVec F S1600000 .f32) (main_arg3 : FVec F S100000 .f32) (main_arg4 : FVec F S1600000 .f32) (main_arg5 : FVec F S64x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x90 .f32) (main_arg14 : FVec F S90 .f32) (main_arg15 : FVec F S90x40 .f32) (main_arg16 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S1600000 .f32 := Host.absf main_arg4
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x90 : Shape := ⟨2, ![128, 90]⟩
abbrev S90 : Shape := ⟨1, ![90]⟩
abbrev S90x40 : Shape := ⟨2, ![90, 40]⟩
abbrev S40 : Shape := ⟨1, ![40]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S1600000x128 : Shape := ⟨2, ![1600000, 128]⟩
abbrev S1x90 : Shape := ⟨2, ![1, 90]⟩
abbrev S1x40 : Shape := ⟨2, ![1, 40]⟩
abbrev S100000x40 : Shape := ⟨2, ![100000, 40]⟩
abbrev S5000x128 : Shape := ⟨2, ![5000, 128]⟩
abbrev S5000x40 : Shape := ⟨2, ![5000, 40]⟩
abbrev S5000x90 : Shape := ⟨2, ![5000, 90]⟩

abbrev nBuf : Space → Nat
  | .hbm => 84
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S100000, .f32⟩
  | .hbm, ⟨4, _⟩ => ⟨S1600000, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x90, .f32⟩
  | .hbm, ⟨14, _⟩ => ⟨S90, .f32⟩
  | .hbm, ⟨15, _⟩ => ⟨S90x40, .f32⟩
  | .hbm, ⟨16, _⟩ => ⟨S40, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S1600000, .f32⟩
  | .hbm, ⟨31, _⟩ => ⟨S_, .f32⟩
  | .hbm, ⟨32, _⟩ => ⟨S1600000, .f32⟩
  | .hbm, ⟨33, _⟩ => ⟨S1600000, .f32⟩
  | .hbm, ⟨34, _⟩ => ⟨S1600000, .f32⟩
  | .hbm, ⟨35, _⟩ => ⟨S1600000, .f32⟩
  | .hbm, ⟨36, _⟩ => ⟨S1600000, .f32⟩
  | .hbm, ⟨37, _⟩ => ⟨S1600000x1, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x64, .f32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S1600000x128, .f32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S1x128, .f32⟩
  | .hbm, ⟨81, _⟩ => ⟨S1x90, .f32⟩
  | .hbm, ⟨82, _⟩ => ⟨S1x40, .f32⟩
  | .hbm, ⟨83, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S128x90, .f32⟩
  | .local _ .vmem, ⟨17, _⟩ => ⟨S1x90, .f32⟩
  | .local _ .vmem, ⟨18, _⟩ => ⟨S90x40, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_cst : Ref sig .tc := ⟨.hbm, 31, rfl⟩
abbrev main_call0_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_3 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x90 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x90 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S90x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x40 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bcast_S_S128 : S_.BroadcastsInDim S128 (![] : Fin 0 → Fin S128.rank)
  shapeCasts_S90_S1x90 : S90.ShapeCasts S1x90
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x90_S128x90_0_0 : ∀ a, (![0, 0] : Fin 2 → Nat) a + S128x90.size a ≤ S128x90.size a
  h_S128x90 : 0 < S128x90.numel
  inb_S1x90_S1x90_0_0 : ∀ a, (![0, 0] : Fin 2 → Nat) a + S1x90.size a ≤ S1x90.size a
  h_S1x90 : 0 < S1x90.numel
  shapeCasts_S1x90_S1x90 : S1x90.ShapeCasts S1x90
  broadcasts_S1x90_S5000x90 : S1x90.Broadcasts S5000x90
  inb_S90x40_S90x40_0_0 : ∀ a, (![0, 0] : Fin 2 → Nat) a + S90x40.size a ≤ S90x40.size a
  h_S90x40 : 0 < S90x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S5000x128_S128x90_S5000x90_1_0_0_1_n_n_wf : DotDims.WF S5000x128 S128x90 S5000x90 [1] [0] [0] [1] [] []
  dot_S5000x90_S90x40_S5000x40_1_0_0_1_n_n_wf : DotDims.WF S5000x90 S90x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x90.size a ≤ S128x90.size a
  hwx2_3 : ∀ i : grid2.Coords, EltTy.bits .f32 = 32 ∨ (Rect.block (s := S128x90) S128x90.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x90.size a ≤ S1x90.size a
  hwx2_4 : ∀ i : grid2.Coords, EltTy.bits .f32 = 32 ∨ (Rect.block (s := S1x90) S1x90.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S90x40.size a ≤ S90x40.size a
  hwx2_5 : ∀ i : grid2.Coords, EltTy.bits .f32 = 32 ∨ (Rect.block (s := S90x40) S90x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x40.size a ≤ S100000x40.size a
  hwx2_7 : ∀ i : grid2.Coords, EltTy.bits .f32 = 32 ∨ (Rect.block (s := S100000x40) S5000x40.size (cc2_transform_7 i) (hinb2_7 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S5000x128_S128x90_S5000x90_1_0_0_1_n_n : DotDims S5000x128 S128x90 S5000x90 where
  lhsContracting := [1]
  rhsContracting := [0]
  lhsNonContracting := [0]
  rhsNonContracting := [1]
  lhsBatch := []
  rhsBatch := []
  wf := dot_S5000x128_S128x90_S5000x90_1_0_0_1_n_n_wf
def dot_S5000x90_S90x40_S5000x40_1_0_0_1_n_n : DotDims S5000x90 S90x40 S5000x40 where
  lhsContracting := [1]
  rhsContracting := [0]
  lhsNonContracting := [0]
  rhsNonContracting := [1]
  lhsBatch := []
  rhsBatch := []
  wf := dot_S5000x90_S90x40_S5000x40_1_0_0_1_n_n_wf

abbrev win0_0 : Pipeline.Window sig grid0 :=
  Pipeline.Window.ofSpec (Memref.whole main_v28) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x90.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x90.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S90x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S1x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55) S5000x40.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x90 : Shape := ⟨2, ![128, 90]⟩
abbrev S90 : Shape := ⟨1, ![90]⟩
abbrev S90x40 : Shape := ⟨2, ![90, 40]⟩
abbrev S40 : Shape := ⟨1, ![40]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x90 : Shape := ⟨2, ![100000, 90]⟩
abbrev S1x90 : Shape := ⟨2, ![1, 90]⟩
abbrev S100000x40 : Shape := ⟨2, ![100000, 40]⟩
abbrev S1x40 : Shape := ⟨2, ![1, 40]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .f32⟩
  | 4 => ⟨S1600000, .f32⟩
  | 5 => ⟨S64x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128x90, .f32⟩
  | 14 => ⟨S90, .f32⟩
  | 15 => ⟨S90x40, .f32⟩
  | 16 => ⟨S40, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S1600000, .f32⟩
  | 31 => ⟨S_, .f32⟩
  | 32 => ⟨S1600000, .f32⟩
  | 33 => ⟨S1600000, .f32⟩
  | 34 => ⟨S1600000, .f32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S1600000x1, .f32⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S100000x128, .f32⟩
  | 54 => ⟨S1x128, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000, .f32⟩
  | 66 => ⟨S1600000, .f32⟩
  | 67 => ⟨S_, .f32⟩
  | 68 => ⟨S1600000, .f32⟩
  | 69 => ⟨S1600000, .f32⟩
  | 70 => ⟨S1600000, .f32⟩
  | 71 => ⟨S1600000, .f32⟩
  | 72 => ⟨S1600000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S1600000x1, .f32⟩
  | 83 => ⟨S1600000x128, .f32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S128, .f32⟩
  | 98 => ⟨S128, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .i1⟩
  | 110 => ⟨S_, .f32⟩
  | 111 => ⟨S100000x128, .f32⟩
  | 112 => ⟨S100000x128, .f32⟩
  | 113 => ⟨S100000x128, .f32⟩
  | 114 => ⟨S100000x90, .f32⟩
  | 115 => ⟨S1x90, .f32⟩
  | 116 => ⟨S100000x90, .f32⟩
  | 117 => ⟨S100000x90, .f32⟩
  | 118 => ⟨S_, .f32⟩
  | 119 => ⟨S100000x90, .f32⟩
  | 120 => ⟨S100000x90, .i1⟩
  | 121 => ⟨S_, .f32⟩
  | 122 => ⟨S100000x90, .f32⟩
  | 123 => ⟨S100000x90, .f32⟩
  | 124 => ⟨S100000x90, .f32⟩
  | 125 => ⟨S100000x40, .f32⟩
  | 126 => ⟨S1x40, .f32⟩
  | 127 => ⟨S100000x40, .f32⟩
  | _ => ⟨S100000x64, .f32⟩

abbrev hbmTy0_1 (i : Nat) : BufTy := match i % 128 with
  | 0 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_cst : Ref sig .tc := ⟨.hbm, 31, rfl⟩
abbrev main_call0_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_3 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call1_cst : Ref sig .tc := ⟨.hbm, 67, rfl⟩
abbrev main_call1_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_5 : Ref sig .tc := ⟨.hbm, 73, rfl⟩
abbrev main_v45 : Ref sig .tc := ⟨.hbm, 74, rfl⟩
abbrev main_v46 : Ref sig .tc := ⟨.hbm, 75, rfl⟩
abbrev main_c_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_7 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_9 : Ref sig .tc := ⟨.hbm, 107, rfl⟩
abbrev main_v75 : Ref sig .tc := ⟨.hbm, 108, rfl⟩
abbrev main_v76 : Ref sig .tc := ⟨.hbm, 109, rfl⟩
abbrev main_cst_10 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_11 : Ref sig .tc := ⟨.hbm, 118, rfl⟩
abbrev main_v84 : Ref sig .tc := ⟨.hbm, 119, rfl⟩
abbrev main_v85 : Ref sig .tc := ⟨.hbm, 120, rfl⟩
abbrev main_cst_12 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S128 : S_.BroadcastsInDim S128 (![] : Fin 0 → Fin S128.rank)
  bcast_S90_S1x90_1 : S90.BroadcastsInDim S1x90 (![1] : Fin 1 → Fin S1x90.rank)
  bcast_S1x90_S100000x90_0_1 : S1x90.BroadcastsInDim S100000x90 (![0, 1] : Fin 2 → Fin S100000x90.rank)
  bcast_S_S100000x90 : S_.BroadcastsInDim S100000x90 (![] : Fin 0 → Fin S100000x90.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x90_S100000x90_1_0_0_1_n_n_wf : DotDims.WF S100000x128 S128x90 S100000x90 [1] [0] [0] [1] [] []
  dot_S100000x90_S90x40_S100000x40_1_0_0_1_n_n_wf : DotDims.WF S100000x90 S90x40 S100000x40 [1] [0] [0] [1] [] []

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x90_S100000x90_1_0_0_1_n_n : DotDims S100000x128 S128x90 S100000x90 where
  lhsContracting := [1]
  rhsContracting := [0]
  lhsNonContracting := [0]
  rhsNonContracting := [1]
  lhsBatch := []
  rhsBatch := []
  wf := dot_S100000x128_S128x90_S100000x90_1_0_0_1_n_n_wf
def dot_S100000x90_S90x40_S100000x40_1_0_0_1_n_n : DotDims S100000x90 S90x40 S100000x40 where
  lhsContracting := [1]
  rhsContracting := [0]
  lhsNonContracting := [0]
  rhsNonContracting := [1]
  lhsBatch := []
  rhsBatch := []
  wf := dot_S100000x90_S90x40_S100000x40_1_0_0_1_n_n_wf

class Facts : Prop extends Facts₀ where

variable [Facts]
-- ==== Proof.Spec.lean ====
/-
  What the network computes, entry by entry, over the extended reals.

  Three whole-array functions, each given by its value at a row `r` and a column `c`:

  * `affine A W b`: row `r` of `A` times the matrix `W`, plus the bias row `b`:
        ∑ₖ A(r,k) · W(k,c) + b(0,c);
  * `lrelu x`: the leaky rectifier, `x` where `x ≥ 0` and `slope · x` elsewhere, the slope being the
    binary32 number nearest 0.01 (both programs carry the same word for it, so it is never evaluated);
  * `head H s t W₁ b₁ W₂ b₂`: per row, the normalisation in its FOLDED form `H(r,k) · s(0,k) + t(0,k)`,
    the rectifier, the first dense layer and its rectifier, the second dense layer:
        ∑ⱼ lrelu(∑ₖ lrelu(H(r,k)·s(0,k) + t(0,k)) · W₁(k,j) + b₁(0,j)) · W₂(j,c) + b₂(0,c).

  Every entry of the result depends on ONE row of the first operand and on the small operands whole; this
  is what lets a kernel compute it a block of rows at a time.
-/
import Idealize.ShloMosaic.PureOps.Ideal
import Idealize.ShloMosaic.Lib.ValueIdx

noncomputable section

namespace Cert.Dgn

open Idealize.ShloMosaic Idealize.ShloMosaic.ValueIdx

/-- Row `r` of `A` against column `c` of `W`, plus the bias row's entry `c`. -/
def affineAt {M K N : Nat} (A : FVec Ideal ⟨2, ![M, K]⟩ .f32) (W : FVec Ideal ⟨2, ![K, N]⟩ .f32)
    (b : FVec Ideal ⟨2, ![1, N]⟩ .f32) (r : Fin M) (c : Fin N) : EReal :=
  (∑ k : Fin K, A (ix2 r k) * W (ix2 k c)) + b (ix2 0 c)

/-- `A · W + b` with the bias row added to every row. -/
def affine {M K N : Nat} (A : FVec Ideal ⟨2, ![M, K]⟩ .f32) (W : FVec Ideal ⟨2, ![K, N]⟩ .f32)
    (b : FVec Ideal ⟨2, ![1, N]⟩ .f32) : FVec Ideal ⟨2, ![M, N]⟩ .f32 :=
  fun i => affineAt A W b (i 0) (i 1)

theorem affine_apply {M K N : Nat} (A : FVec Ideal ⟨2, ![M, K]⟩ .f32) (W : FVec Ideal ⟨2, ![K, N]⟩ .f32)
    (b : FVec Ideal ⟨2, ![1, N]⟩ .f32) (r : Fin M) (c : Fin N) : affine A W b (ix2 r c) = affineAt A W b r c := rfl

/-- The leaky rectifier with the printed slope word. -/
def lrelu (x : EReal) : EReal :=
  Scalar.select (Ideal.cmp .oge x (Ideal.ofBits .f32 0x00000000#32)) x (Ideal.ofBits .f32 0x3C23D70A#32 * x)

/-- The normalised and rectified hidden entry `(r, k)`, the normalisation folded into scale `s` and shift `t`. -/
def hiddenAt {M K : Nat} (H : FVec Ideal ⟨2, ![M, K]⟩ .f32) (s t : FVec Ideal ⟨2, ![1, K]⟩ .f32) (r : Fin M) (k : Fin K) : EReal :=
  lrelu (H (ix2 r k) * s (ix2 0 k) + t (ix2 0 k))

/-- The head's output entry `(r, c)`. -/
def headAt {M K J N : Nat} (H : FVec Ideal ⟨2, ![M, K]⟩ .f32) (s t : FVec Ideal ⟨2, ![1, K]⟩ .f32)
    (W₁ : FVec Ideal ⟨2, ![K, J]⟩ .f32) (b₁ : FVec Ideal ⟨2, ![1, J]⟩ .f32)
    (W₂ : FVec Ideal ⟨2, ![J, N]⟩ .f32) (b₂ : FVec Ideal ⟨2, ![1, N]⟩ .f32) (r : Fin M) (c : Fin N) : EReal :=
  (∑ j : Fin J, lrelu ((∑ k : Fin K, hiddenAt H s t r k * W₁ (ix2 k j)) + b₁ (ix2 0 j)) * W₂ (ix2 j c)) + b₂ (ix2 0 c)

/-- The head as a whole-array function. -/
def head {M K J N : Nat} (H : FVec Ideal ⟨2, ![M, K]⟩ .f32) (s t : FVec Ideal ⟨2, ![1, K]⟩ .f32)
    (W₁ : FVec Ideal ⟨2, ![K, J]⟩ .f32) (b₁ : FVec Ideal ⟨2, ![1, J]⟩ .f32)
    (W₂ : FVec Ideal ⟨2, ![J, N]⟩ .f32) (b₂ : FVec Ideal ⟨2, ![1, N]⟩ .f32) : FVec Ideal ⟨2, ![M, N]⟩ .f32 :=
  fun i => headAt H s t W₁ b₁ W₂ b₂ (i 0) (i 1)

theorem head_apply {M K J N : Nat} (H : FVec Ideal ⟨2, ![M, K]⟩ .f32) (s t : FVec Ideal ⟨2, ![1, K]⟩ .f32)
    (W₁ : FVec Ideal ⟨2, ![K, J]⟩ .f32) (b₁ : FVec Ideal ⟨2, ![1, J]⟩ .f32)
    (W₂ : FVec Ideal ⟨2, ![J, N]⟩ .f32) (b₂ : FVec Ideal ⟨2, ![1, N]⟩ .f32) (r : Fin M) (c : Fin N) :
    head H s t W₁ b₁ W₂ b₂ (ix2 r c) = headAt H s t W₁ b₁ W₂ b₂ r c := rfl

end Cert.Dgn

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.KernelEntries.lean ====
/-
  The three kernel bodies' arithmetic, read at one entry of the block they store.

  Each body loads its operands' blocks whole, computes, and stores one block. At Ideal the changes of float
  format are the identity, a product into a zero accumulator is the plain sum of products, and the bias row
  broadcast down the rows reads the row's entry. So at block coordinate `(p, q)` a body's stored value is the
  specification's entry formula on the body's OWN operands: the block of rows it was given and the small
  operands whole.
-/
import proofs.«154626_j4801773437364_1_alg».proof.Proof.Gen.KernelIdeal.Skeleton
import proofs.«154626_j4801773437364_1_alg».proof.Proof.Spec
import proofs.«154626_j4801773437364_1_alg».proof.Proof.LibPlainMatmul
import proofs.«154626_j4801773437364_1_alg».proof.Proof.LibRows
import Idealize.ShloMosaic.Lib.Pipeline.Value

noncomputable section

namespace Cert.Dgn

open Idealize.ShloMosaic Idealize.ShloMosaic.ValueIdx Cert.KernelIdeal Cert.KernelIdeal.Gen

/-- The first affine layer's body at `(p, q)`: row `p` of its block of rows against `W`, plus the bias. -/
theorem affine0_entry (x0 : Vec Ideal S10000x64 .f32) (x1 : Vec Ideal S64x128 .f32) (x2 : Vec Ideal S1x128 .f32)
    (p : Fin 10000) (q : Fin 128) :
    k0_pay1 (F := Ideal) x0 x1 x2 (ix2 p q) = affineAt x0 x1 x2 p q := by
  unfold k0_pay1 affineAt
  simp only [shapeCast_self]
  exact (addf_apply _ _ _).trans (congrArg₂ (· + ·)
    (LibPlainMatmul.matmul_zero_apply dot_S10000x64_S64x128_S10000x128_1_0_0_1_n_n rfl rfl rfl rfl rfl rfl none _ _ p q)
    (Rows.bcast_row (by decide) x2 _ p q))

/-- The second affine layer's body at `(p, q)`. -/
theorem affine1_entry (x0 : Vec Ideal S10000x128 .f32) (x1 : Vec Ideal S128x128 .f32) (x2 : Vec Ideal S1x128 .f32)
    (p : Fin 10000) (q : Fin 128) :
    k1_pay1 (F := Ideal) x0 x1 x2 (ix2 p q) = affineAt x0 x1 x2 p q := by
  unfold k1_pay1 affineAt
  simp only [shapeCast_self]
  exact (addf_apply _ _ _).trans (congrArg₂ (· + ·)
    (LibPlainMatmul.matmul_zero_apply dot_S10000x128_S128x128_S10000x128_1_0_0_1_n_n rfl rfl rfl rfl rfl rfl none _ _ p q)
    (Rows.bcast_row (by decide) x2 _ p q))

/-- A rectifier as the kernel spells it — compare with the splat zero, select between the value and the splat
    slope times the value, change of format — read at an index. -/
theorem lrelu_read {S : Shape} (v : FVec Ideal S .f32) (h : (FTy.bf16).bits < (FTy.f32).bits) (i : S.Idx) :
    (truncf .bf16 (select (cmpf .oge v (broadcast S (Scalar.ofBits (F := Ideal) .f32 0x00000000#32))) v
      (mulf (broadcast S (Scalar.ofBits (F := Ideal) .f32 0x3C23D70A#32)) v)) h : FVec Ideal S .bf16) i = lrelu (v i) := rfl

/-- The head's body at `(p, c)`: the folded normalisation, the rectifier and the two dense layers on row `p` of
    its block of rows. -/
theorem head_entry (x0 : Vec Ideal S5000x128 .f32) (x1 x2 : Vec Ideal S1x128 .f32) (x3 : Vec Ideal S128x90 .f32)
    (x4 : Vec Ideal S1x90 .f32) (x5 : Vec Ideal S90x40 .f32) (x6 : Vec Ideal S1x40 .f32) (p : Fin 5000) (c : Fin 40) :
    k2_pay1 (F := Ideal) x0 x1 x2 x3 x4 x5 x6 (ix2 p c) = headAt x0 x1 x2 x3 x4 x5 x6 p c := by
  unfold k2_pay1 headAt
  simp only [shapeCast_self]
  refine (addf_apply _ _ _).trans (congrArg₂ (· + ·) ?_ (Rows.bcast_row (by decide) x6 _ p c))
  refine (LibPlainMatmul.matmul_zero_apply dot_S5000x90_S90x40_S5000x40_1_0_0_1_n_n rfl rfl rfl rfl rfl rfl none _ _ p c).trans ?_
  refine Finset.sum_congr rfl fun j _ => congrArg (· * _) ?_
  refine (lrelu_read _ _ _).trans (congrArg lrelu ?_)
  refine (addf_apply _ _ _).trans (congrArg₂ (· + ·) ?_ (Rows.bcast_row (by decide) x4 _ p j))
  refine (LibPlainMatmul.matmul_zero_apply dot_S5000x128_S128x90_S5000x90_1_0_0_1_n_n rfl rfl rfl rfl rfl rfl none _ _ p j).trans ?_
  refine Finset.sum_congr rfl fun k _ => congrArg (· * _) ?_
  refine (lrelu_read _ _ _).trans (congrArg lrelu ?_)
  exact (addf_apply _ _ _).trans (congrArg₂ (· + ·)
    ((mulf_apply _ _ _).trans (congrArg (_ * ·) (Rows.bcast_row (by decide) x1 _ p k)))
    (Rows.bcast_row (by decide) x2 _ p k))

end Cert.Dgn

end
-- ==== Proof.Layer0.lean ====
/-
  The first affine layer's output array, whole.

  The kernel runs at ten grid points; point `t` is given rows `10000·t … 10000·t + 9999` of the aggregated
  features, the weight matrix and the bias row whole, and writes back rows `10000·t …` of the result. Row
  `10000·t + p` of the result is therefore the entry formula on row `10000·t + p` of the aggregated features:
  block `t` of the result is block `t` of ONE whole-array function, `Dgn.affine`, of the arrays as the region
  finds them. The ten blocks of rows tile the array (row `r` lies in block `r / 10000`), so the array ends
  holding that function.
-/
import proofs.«154626_j4801773437364_1_alg».proof.Proof.Gen.KernelIdeal.Frame
import proofs.«154626_j4801773437364_1_alg».proof.Proof.KernelEntries
import Idealize.ShloMosaic.Lib.Pipeline.Value

set_option maxRecDepth 16384

noncomputable section

namespace Cert.KernelIdeal.Layer0

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the row-block windows sit at block `t`, the small operands at block 0. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt (show cfg0.N = 10 from N_0)

/-- Row `p` of point `t`'s block of the aggregated features is row `10000·t + p` of the array. -/
theorem rows_in (c : Dev nD) (t : Fin cfg0.N) (p : Fin 10000) (k : Fin 64) :
    iblk0 V c 0 t (ix2 p k) = V c main_v28 (ix2 ⟨t.val * 10000 + p.val, by have := point_lt t; omega⟩ k) := by
  show V c main_v28 (((cfg0.win 0).blk t).view.emb (ix2 p k)) = _
  refine congrArg (V c main_v28) (funext fun a => Fin.ext ?_)
  obtain ⟨e0, e1, -⟩ := index_maps t
  match a with
  | ⟨0, _⟩ => show win0_0.index t (0 : Fin 2) * 10000 + 1 * p.val = t.val * 10000 + p.val; omega
  | ⟨1, _⟩ => show win0_0.index t (1 : Fin 2) * 64 + 1 * k.val = k.val; omega

/-- The weight matrix's block is the matrix. -/
theorem weights_in (c : Dev nD) (t : Fin cfg0.N) (k : Fin 64) (q : Fin 128) :
    iblk0 V c 1 t (ix2 k q) = V c main_arg5 (ix2 k q) := by
  show V c main_arg5 (((cfg0.win 1).blk t).view.emb (ix2 k q)) = _
  refine congrArg (V c main_arg5) (funext fun a => Fin.ext ?_)
  obtain ⟨-, -, e0, e1, -⟩ := index_maps t
  match a with
  | ⟨0, _⟩ => show win0_1.index t (0 : Fin 2) * 64 + 1 * k.val = k.val; omega
  | ⟨1, _⟩ => show win0_1.index t (1 : Fin 2) * 128 + 1 * q.val = q.val; omega

/-- The bias row's block is the row. -/
theorem bias_in (c : Dev nD) (t : Fin cfg0.N) (q : Fin 128) :
    iblk0 V c 2 t (ix2 0 q) = V c main_v29 (ix2 0 q) := by
  show V c main_v29 (((cfg0.win 2).blk t).view.emb (ix2 0 q)) = _
  refine congrArg (V c main_v29) (funext fun a => Fin.ext ?_)
  obtain ⟨-, -, -, -, e0, e1, -⟩ := index_maps t
  match a with
  | ⟨0, _⟩ => show win0_2.index t (0 : Fin 2) * 1 + 1 * 0 = 0; omega
  | ⟨1, _⟩ => show win0_2.index t (1 : Fin 2) * 128 + 1 * q.val = q.val; omega

/-- Entry `(p, q)` of point `t`'s output block sits at row `10000·t + p`, column `q` of the array. -/
theorem out_at (t : Fin cfg0.N) (p : Fin 10000) (q : Fin 128) :
    ((cfg0.win 3).blk t).view.emb (ix2 p q) = ix2 ⟨t.val * 10000 + p.val, by have := point_lt t; omega⟩ q := by
  refine funext fun a => Fin.ext ?_
  obtain ⟨-, -, -, -, -, -, e0, e1⟩ := index_maps t
  match a with
  | ⟨0, _⟩ => show win0_3.index t (0 : Fin 2) * 10000 + 1 * p.val = t.val * 10000 + p.val; omega
  | ⟨1, _⟩ => show win0_3.index t (1 : Fin 2) * 128 + 1 * q.val = q.val; omega

/-- What point `t` writes back is block `t` of the affine layer of the arrays as the region finds them. -/
theorem written_back (c : Dev nD) (t : Fin cfg0.N) :
    (dat0 V c).flushed 3 t
      = ((cfg0.win 3).blk t).view.read (Elt Ideal) (Dgn.affine (V c main_v28) (V c main_arg5) (V c main_v29)) := by
  show (cfg0.win 3).cut (grid0.coords t) ((dat0 V c).after 3 t) = _
  rw [after0_3]
  unfold out0_3
  rw [View.canon_unit_zero offsets_zero]
  simp only [View.ld_unit_zero (S := S10000x64) offsets_zero, View.ld_unit_zero (S := S64x128) offsets_zero,
    View.ld_unit_zero (S := S1x128) offsets_zero]
  funext y
  obtain ⟨p, q, rfl⟩ : ∃ (p : Fin 10000) (q : Fin 128), y = ix2 p q := ⟨y 0, y 1, eq_ix2 y⟩
  show k0_pay1 (iblk0 V c 0 t) (iblk0 V c 1 t) (iblk0 V c 2 t) (ix2 p q)
    = Dgn.affine (V c main_v28) (V c main_arg5) (V c main_v29) (((cfg0.win 3).blk t).view.emb (ix2 p q))
  refine (Dgn.affine0_entry (iblk0 V c 0 t) (iblk0 V c 1 t) (iblk0 V c 2 t) p q).trans ?_
  rw [out_at t p q, Dgn.affine_apply]
  unfold Dgn.affineAt
  rw [bias_in V c t q]
  refine congrArg (· + _) (Finset.sum_congr rfl fun k _ => ?_)
  rw [rows_in V c t p k, weights_in V c t k q]

/-- An index of the result lies in point `t`'s block iff each coordinate lies in the block's range on its axis. -/
theorem in_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v30).slice (win0_3.rect t)).set ↔ _
  rw [View.set_slice_whole, Rect.mem_set_unit]
  exact Iff.rfl

/-- Every row of the result lies in the block of the point `row / 10000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_3 _, ?_⟩
  rw [in_block]
  obtain ⟨-, -, -, -, -, -, e0, e1⟩ := index_maps ⟨(i 0).val / 10000, by rw [hN]; omega⟩
  intro a
  match a with
  | ⟨0, _⟩ =>
    show win0_3.index ⟨(i 0).val / 10000, _⟩ (0 : Fin 2) * 10000 ≤ (i 0).val ∧ (i 0).val < win0_3.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, _⟩ (1 : Fin 2) * 128 ≤ (i 1).val ∧ (i 1).val < win0_3.index ⟨(i 0).val / 10000, _⟩ (1 : Fin 2) * 128 + 128
    rw [e1]; omega

/-- THE RESULT ARRAY after the region: the affine layer of the arrays as the region finds them. -/
theorem result (c : Dev nD) :
    (dat0 V c).arrAt 3 cfg0.N = Dgn.affine (V c main_v28) (V c main_arg5) (V c main_v29) :=
  (dat0 V c).arrAt_eq_of_cover 3 _ (fun t _ => written_back V c t) covered

end Cert.KernelIdeal.Layer0

end
-- ==== Proof.Layer1.lean ====
/-
  The second affine layer's output array, whole.

  The kernel runs at ten grid points; point `t` is given rows `10000·t … 10000·t + 9999` of the twice-aggregated
  features, the weight matrix and the bias row whole, and writes back rows `10000·t …` of the result. Row
  `10000·t + p` of the result is therefore the entry formula on row `10000·t + p` of the aggregated features:
  block `t` of the result is block `t` of ONE whole-array function, `Dgn.affine`, of the arrays as the region
  finds them. The ten blocks of rows tile the array (row `r` lies in block `r / 10000`), so the array ends
  holding that function.
-/
import proofs.«154626_j4801773437364_1_alg».proof.Proof.Gen.KernelIdeal.Frame
import proofs.«154626_j4801773437364_1_alg».proof.Proof.KernelEntries
import Idealize.ShloMosaic.Lib.Pipeline.Value

set_option maxRecDepth 16384

noncomputable section

namespace Cert.KernelIdeal.Layer1

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the row-block windows sit at block `t`, the small operands at block 0. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 10 := lt_of_lt_of_eq t.isLt (show cfg1.N = 10 from N_1)

/-- Row `p` of point `t`'s block of the aggregated features is row `10000·t + p` of the array. -/
theorem rows_in (c : Dev nD) (t : Fin cfg1.N) (p : Fin 10000) (k : Fin 128) :
    iblk1 V c 0 t (ix2 p k) = V c main_v42 (ix2 ⟨t.val * 10000 + p.val, by have := point_lt t; omega⟩ k) := by
  show V c main_v42 (((cfg1.win 0).blk t).view.emb (ix2 p k)) = _
  refine congrArg (V c main_v42) (funext fun a => Fin.ext ?_)
  obtain ⟨e0, e1, -⟩ := index_maps t
  match a with
  | ⟨0, _⟩ => show win1_0.index t (0 : Fin 2) * 10000 + 1 * p.val = t.val * 10000 + p.val; omega
  | ⟨1, _⟩ => show win1_0.index t (1 : Fin 2) * 128 + 1 * k.val = k.val; omega

/-- The weight matrix's block is the matrix. -/
theorem weights_in (c : Dev nD) (t : Fin cfg1.N) (k : Fin 128) (q : Fin 128) :
    iblk1 V c 1 t (ix2 k q) = V c main_arg7 (ix2 k q) := by
  show V c main_arg7 (((cfg1.win 1).blk t).view.emb (ix2 k q)) = _
  refine congrArg (V c main_arg7) (funext fun a => Fin.ext ?_)
  obtain ⟨-, -, e0, e1, -⟩ := index_maps t
  match a with
  | ⟨0, _⟩ => show win1_1.index t (0 : Fin 2) * 128 + 1 * k.val = k.val; omega
  | ⟨1, _⟩ => show win1_1.index t (1 : Fin 2) * 128 + 1 * q.val = q.val; omega

/-- The bias row's block is the row. -/
theorem bias_in (c : Dev nD) (t : Fin cfg1.N) (q : Fin 128) :
    iblk1 V c 2 t (ix2 0 q) = V c main_v43 (ix2 0 q) := by
  show V c main_v43 (((cfg1.win 2).blk t).view.emb (ix2 0 q)) = _
  refine congrArg (V c main_v43) (funext fun a => Fin.ext ?_)
  obtain ⟨-, -, -, -, e0, e1, -⟩ := index_maps t
  match a with
  | ⟨0, _⟩ => show win1_2.index t (0 : Fin 2) * 1 + 1 * 0 = 0; omega
  | ⟨1, _⟩ => show win1_2.index t (1 : Fin 2) * 128 + 1 * q.val = q.val; omega

/-- Entry `(p, q)` of point `t`'s output block sits at row `10000·t + p`, column `q` of the array. -/
theorem out_at (t : Fin cfg1.N) (p : Fin 10000) (q : Fin 128) :
    ((cfg1.win 3).blk t).view.emb (ix2 p q) = ix2 ⟨t.val * 10000 + p.val, by have := point_lt t; omega⟩ q := by
  refine funext fun a => Fin.ext ?_
  obtain ⟨-, -, -, -, -, -, e0, e1⟩ := index_maps t
  match a with
  | ⟨0, _⟩ => show win1_3.index t (0 : Fin 2) * 10000 + 1 * p.val = t.val * 10000 + p.val; omega
  | ⟨1, _⟩ => show win1_3.index t (1 : Fin 2) * 128 + 1 * q.val = q.val; omega

/-- What point `t` writes back is block `t` of the affine layer of the arrays as the region finds them. -/
theorem written_back (c : Dev nD) (t : Fin cfg1.N) :
    (dat1 V c).flushed 3 t
      = ((cfg1.win 3).blk t).view.read (Elt Ideal) (Dgn.affine (V c main_v42) (V c main_arg7) (V c main_v43)) := by
  show (cfg1.win 3).cut (grid1.coords t) ((dat1 V c).after 3 t) = _
  rw [after1_3]
  unfold out1_3
  rw [View.canon_unit_zero offsets_zero]
  simp only [View.ld_unit_zero (S := S10000x128) offsets_zero, View.ld_unit_zero (S := S128x128) offsets_zero,
    View.ld_unit_zero (S := S1x128) offsets_zero]
  funext y
  obtain ⟨p, q, rfl⟩ : ∃ (p : Fin 10000) (q : Fin 128), y = ix2 p q := ⟨y 0, y 1, eq_ix2 y⟩
  show k1_pay1 (iblk1 V c 0 t) (iblk1 V c 1 t) (iblk1 V c 2 t) (ix2 p q)
    = Dgn.affine (V c main_v42) (V c main_arg7) (V c main_v43) (((cfg1.win 3).blk t).view.emb (ix2 p q))
  refine (Dgn.affine1_entry (iblk1 V c 0 t) (iblk1 V c 1 t) (iblk1 V c 2 t) p q).trans ?_
  rw [out_at t p q, Dgn.affine_apply]
  unfold Dgn.affineAt
  rw [bias_in V c t q]
  refine congrArg (· + _) (Finset.sum_congr rfl fun k _ => ?_)
  rw [rows_in V c t p k, weights_in V c t k q]

/-- An index of the result lies in point `t`'s block iff each coordinate lies in the block's range on its axis. -/
theorem in_block (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v44).slice (win1_3.rect t)).set ↔ _
  rw [View.set_slice_whole, Rect.mem_set_unit]
  exact Iff.rfl

/-- Every row of the result lies in the block of the point `row / 10000`. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_3 _, ?_⟩
  rw [in_block]
  obtain ⟨-, -, -, -, -, -, e0, e1⟩ := index_maps ⟨(i 0).val / 10000, by rw [hN]; omega⟩
  intro a
  match a with
  | ⟨0, _⟩ =>
    show win1_3.index ⟨(i 0).val / 10000, _⟩ (0 : Fin 2) * 10000 ≤ (i 0).val ∧ (i 0).val < win1_3.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, _⟩ (1 : Fin 2) * 128 ≤ (i 1).val ∧ (i 1).val < win1_3.index ⟨(i 0).val / 10000, _⟩ (1 : Fin 2) * 128 + 128
    rw [e1]; omega

/-- THE RESULT ARRAY after the region: the affine layer of the arrays as the region finds them. -/
theorem result (c : Dev nD) :
    (dat1 V c).arrAt 3 cfg1.N = Dgn.affine (V c main_v42) (V c main_arg7) (V c main_v43) :=
  (dat1 V c).arrAt_eq_of_cover 3 _ (fun t _ => written_back V c t) covered

end Cert.KernelIdeal.Layer1

end
-- ==== Proof.Layer2.lean ====
/-
  The head's output array, whole.

  The head's kernel runs at twenty grid points; point `t` is given rows `5000·t … 5000·t + 4999` of the second
  layer's output, the scale row, the shift row, both weight matrices and both bias rows whole, and writes back
  rows `5000·t …` of the result. An output entry depends on one row of the second layer's output only, so block `t`
  of the result is block `t` of ONE whole-array function, `Dgn.head`, of the arrays as the region finds them, and the
  twenty blocks of rows tile the array (row `r` lies in block `r / 5000`).
-/
import proofs.«154626_j4801773437364_1_alg».proof.Proof.Gen.KernelIdeal.Frame
import proofs.«154626_j4801773437364_1_alg».proof.Proof.KernelEntries
import Idealize.ShloMosaic.Lib.Pipeline.Value

set_option maxRecDepth 16384

noncomputable section

namespace Cert.KernelIdeal.Layer2

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the row-block windows sit at block `t`, the small operands at block 0. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem point_lt (t : Fin cfg2.N) : t.val < 20 := lt_of_lt_of_eq t.isLt (show cfg2.N = 20 from N_2)

/-- Row `p` of point `t`'s block of the second layer's output is row `5000·t + p` of the array. -/
theorem rows_in (c : Dev nD) (t : Fin cfg2.N) (p : Fin 5000) (k : Fin 128) :
    iblk2 V c 0 t (ix2 p k) = V c main_v44 (ix2 ⟨t.val * 5000 + p.val, by have := point_lt t; omega⟩ k) := by
  show V c main_v44 (((cfg2.win 0).blk t).view.emb (ix2 p k)) = _
  refine congrArg (V c main_v44) (funext fun a => Fin.ext ?_)
  obtain ⟨e0, e1, -⟩ := index_maps t
  match a with
  | ⟨0, _⟩ => show win2_0.index t (0 : Fin 2) * 5000 + 1 * p.val = t.val * 5000 + p.val; omega
  | ⟨1, _⟩ => show win2_0.index t (1 : Fin 2) * 128 + 1 * k.val = k.val; omega

/-- The scale row's block is the row. -/
theorem scale_in (c : Dev nD) (t : Fin cfg2.N) (k : Fin 128) : iblk2 V c 1 t (ix2 0 k) = V c main_v51 (ix2 0 k) := by
  show V c main_v51 (((cfg2.win 1).blk t).view.emb (ix2 0 k)) = _
  refine congrArg (V c main_v51) (funext fun a => Fin.ext ?_)
  obtain ⟨-, -, e0, e1, -⟩ := index_maps t
  match a with
  | ⟨0, _⟩ => show win2_1.index t (0 : Fin 2) * 1 + 1 * 0 = 0; omega
  | ⟨1, _⟩ => show win2_1.index t (1 : Fin 2) * 128 + 1 * k.val = k.val; omega

/-- The shift row's block is the row. -/
theorem shift_in (c : Dev nD) (t : Fin cfg2.N) (k : Fin 128) : iblk2 V c 2 t (ix2 0 k) = V c main_v52 (ix2 0 k) := by
  show V c main_v52 (((cfg2.win 2).blk t).view.emb (ix2 0 k)) = _
  refine congrArg (V c main_v52) (funext fun a => Fin.ext ?_)
  obtain ⟨-, -, -, -, e0, e1, -⟩ := index_maps t
  match a with
  | ⟨0, _⟩ => show win2_2.index t (0 : Fin 2) * 1 + 1 * 0 = 0; omega
  | ⟨1, _⟩ => show win2_2.index t (1 : Fin 2) * 128 + 1 * k.val = k.val; omega

/-- The first dense layer's weights: the block is the matrix. -/
theorem weights1_in (c : Dev nD) (t : Fin cfg2.N) (k : Fin 128) (j : Fin 90) : iblk2 V c 3 t (ix2 k j) = V c main_arg13 (ix2 k j) := by
  show V c main_arg13 (((cfg2.win 3).blk t).view.emb (ix2 k j)) = _
  refine congrArg (V c main_arg13) (funext fun a => Fin.ext ?_)
  obtain ⟨-, -, -, -, -, -, e0, e1, -⟩ := index_maps t
  match a with
  | ⟨0, _⟩ => show win2_3.index t (0 : Fin 2) * 128 + 1 * k.val = k.val; omega
  | ⟨1, _⟩ => show win2_3.index t (1 : Fin 2) * 90 + 1 * j.val = j.val; omega

/-- Its bias row. -/
theorem bias1_in (c : Dev nD) (t : Fin cfg2.N) (j : Fin 90) : iblk2 V c 4 t (ix2 0 j) = V c main_v53 (ix2 0 j) := by
  show V c main_v53 (((cfg2.win 4).blk t).view.emb (ix2 0 j)) = _
  refine congrArg (V c main_v53) (funext fun a => Fin.ext ?_)
  obtain ⟨-, -, -, -, -, -, -, -, e0, e1, -⟩ := index_maps t
  match a with
  | ⟨0, _⟩ => show win2_4.index t (0 : Fin 2) * 1 + 1 * 0 = 0; omega
  | ⟨1, _⟩ => show win2_4.index t (1 : Fin 2) * 90 + 1 * j.val = j.val; omega

/-- The second dense layer's weights. -/
theorem weights2_in (c : Dev nD) (t : Fin cfg2.N) (j : Fin 90) (q : Fin 40) : iblk2 V c 5 t (ix2 j q) = V c main_arg15 (ix2 j q) := by
  show V c main_arg15 (((cfg2.win 5).blk t).view.emb (ix2 j q)) = _
  refine congrArg (V c main_arg15) (funext fun a => Fin.ext ?_)
  obtain ⟨-, -, -, -, -, -, -, -, -, -, e0, e1, -⟩ := index_maps t
  match a with
  | ⟨0, _⟩ => show win2_5.index t (0 : Fin 2) * 90 + 1 * j.val = j.val; omega
  | ⟨1, _⟩ => show win2_5.index t (1 : Fin 2) * 40 + 1 * q.val = q.val; omega

/-- Its bias row. -/
theorem bias2_in (c : Dev nD) (t : Fin cfg2.N) (q : Fin 40) : iblk2 V c 6 t (ix2 0 q) = V c main_v54 (ix2 0 q) := by
  show V c main_v54 (((cfg2.win 6).blk t).view.emb (ix2 0 q)) = _
  refine congrArg (V c main_v54) (funext fun a => Fin.ext ?_)
  obtain ⟨-, -, -, -, -, -, -, -, -, -, -, -, e0, e1, -⟩ := index_maps t
  match a with
  | ⟨0, _⟩ => show win2_6.index t (0 : Fin 2) * 1 + 1 * 0 = 0; omega
  | ⟨1, _⟩ => show win2_6.index t (1 : Fin 2) * 40 + 1 * q.val = q.val; omega

/-- Entry `(p, q)` of point `t`'s output block sits at row `5000·t + p`, column `q` of the array. -/
theorem out_at (t : Fin cfg2.N) (p : Fin 5000) (q : Fin 40) :
    ((cfg2.win 7).blk t).view.emb (ix2 p q) = ix2 ⟨t.val * 5000 + p.val, by have := point_lt t; omega⟩ q := by
  refine funext fun a => Fin.ext ?_
  obtain ⟨-, -, -, -, -, -, -, -, -, -, -, -, -, -, e0, e1⟩ := index_maps t
  match a with
  | ⟨0, _⟩ => show win2_7.index t (0 : Fin 2) * 5000 + 1 * p.val = t.val * 5000 + p.val; omega
  | ⟨1, _⟩ => show win2_7.index t (1 : Fin 2) * 40 + 1 * q.val = q.val; omega

/-- What point `t` writes back is block `t` of the head of the arrays as the region finds them. -/
theorem written_back (c : Dev nD) (t : Fin cfg2.N) :
    (dat2 V c).flushed 7 t
      = ((cfg2.win 7).blk t).view.read (Elt Ideal)
          (Dgn.head (V c main_v44) (V c main_v51) (V c main_v52) (V c main_arg13) (V c main_v53) (V c main_arg15) (V c main_v54)) := by
  show (cfg2.win 7).cut (grid2.coords t) ((dat2 V c).after 7 t) = _
  rw [after2_7]
  unfold out2_7
  rw [View.canon_unit_zero offsets_zero]
  simp only [View.ld_unit_zero (S := S5000x128) offsets_zero, View.ld_unit_zero (S := S1x128) offsets_zero,
    View.ld_unit_zero (S := S128x90) offsets_zero, View.ld_unit_zero (S := S1x90) offsets_zero,
    View.ld_unit_zero (S := S90x40) offsets_zero, View.ld_unit_zero (S := S1x40) offsets_zero]
  funext y
  obtain ⟨p, q, rfl⟩ : ∃ (p : Fin 5000) (q : Fin 40), y = ix2 p q := ⟨y 0, y 1, eq_ix2 y⟩
  show k2_pay1 (iblk2 V c 0 t) (iblk2 V c 1 t) (iblk2 V c 2 t) (iblk2 V c 3 t) (iblk2 V c 4 t) (iblk2 V c 5 t) (iblk2 V c 6 t) (ix2 p q)
    = Dgn.head (V c main_v44) (V c main_v51) (V c main_v52) (V c main_arg13) (V c main_v53) (V c main_arg15) (V c main_v54)
        (((cfg2.win 7).blk t).view.emb (ix2 p q))
  refine (Dgn.head_entry (iblk2 V c 0 t) (iblk2 V c 1 t) (iblk2 V c 2 t) (iblk2 V c 3 t) (iblk2 V c 4 t) (iblk2 V c 5 t) (iblk2 V c 6 t) p q).trans ?_
  rw [out_at t p q, Dgn.head_apply]
  unfold Dgn.headAt
  rw [bias2_in V c t q]
  refine congrArg (· + _) (Finset.sum_congr rfl fun j _ => ?_)
  rw [weights2_in V c t j q, bias1_in V c t j]
  refine congrArg (fun z => Dgn.lrelu (z + _) * _) (Finset.sum_congr rfl fun k _ => ?_)
  unfold Dgn.hiddenAt
  rw [weights1_in V c t k j, rows_in V c t p k, scale_in V c t k, shift_in V c t k]

/-- An index of the result lies in point `t`'s block iff each coordinate lies in the block's range on its axis. -/
theorem in_block (t : Fin cfg2.N) (i : S100000x40.Idx) :
    i ∈ ((cfg2.win 7).blk t).view.set ↔ ∀ a : Fin 2, win2_7.index t a * S5000x40.size a ≤ (i a).val ∧ (i a).val < win2_7.index t a * S5000x40.size a + S5000x40.size a := by
  show i ∈ ((View.whole main_v55).slice (win2_7.rect t)).set ↔ _
  rw [View.set_slice_whole, Rect.mem_set_unit]
  exact Iff.rfl

/-- Every row of the result lies in the block of the point `row / 5000`. -/
theorem covered (i : S100000x40.Idx) :
    ∃ t : Fin cfg2.N, (cfg2.win 7).flush t = true ∧ i ∈ ((cfg2.win 7).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_7 _, ?_⟩
  rw [in_block]
  obtain ⟨-, -, -, -, -, -, -, -, -, -, -, -, -, -, e0, e1⟩ := index_maps ⟨(i 0).val / 5000, by rw [hN]; omega⟩
  intro a
  match a with
  | ⟨0, _⟩ =>
    show win2_7.index ⟨(i 0).val / 5000, _⟩ (0 : Fin 2) * 5000 ≤ (i 0).val ∧ (i 0).val < win2_7.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, _⟩ (1 : Fin 2) * 40 ≤ (i 1).val ∧ (i 1).val < win2_7.index ⟨(i 0).val / 5000, _⟩ (1 : Fin 2) * 40 + 40
    rw [e1]; omega

/-- THE RESULT ARRAY after the region: the head of the arrays as the region finds them. -/
theorem result (c : Dev nD) :
    (dat2 V c).arrAt 7 cfg2.N
      = Dgn.head (V c main_v44) (V c main_v51) (V c main_v52) (V c main_arg13) (V c main_v53) (V c main_arg15) (V c main_v54) :=
  (dat2 V c).arrAt_eq_of_cover 7 _ (fun t _ => written_back V c t) covered

end Cert.KernelIdeal.Layer2

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«154626_j4801773437364_1_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.LibRowBroadcast.lean ====
/-
  A vector laid out as a row and repeated down the rows, read at an entry.

  A length-`N` vector `v` made a `[1, N]` row — by a reshape, or by a broadcast along a new leading axis — has
  `v c` at `(0, c)`; the row repeated down `M` rows has `v c` at `(r, c)`. (For `N = 1` the repeated axis and
  the kept axis could not be told apart by their extents, hence the side condition.)
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector reshaped to a `[1, N]` row, at `(0, c)`. -/
theorem row_cast {N : Nat} (v : (⟨1, ![N]⟩ : Shape).Idx → α) (h : (⟨1, ![N]⟩ : Shape).ShapeCasts ⟨2, ![1, N]⟩) (c : Fin N) :
    shapeCast ⟨2, ![1, N]⟩ v h (ix2 0 c) = v (ix1 c) :=
  shapeCast_apply v h (ix2 0 c) (ix1 c) (by
    rw [Shape.rowMajor_val_one, Shape.rowMajor_val_two]; show c.val = 0 * N + c.val; omega)

/-- A vector broadcast to a `[1, N]` row along a new leading axis, at `(0, c)`. -/
theorem row_bcast {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 0 c) = v (ix1 c) :=
  broadcastInDim_apply ![1] h v (ix2 0 c) (ix1 c) (fun a => match a with
    | ⟨0, _⟩ => by
      show c.val = (if N = 1 then 0 else c.val)
      split
      · have := c.isLt; omega
      · rfl)

/-- A `[1, N]` row repeated down `M` rows, at `(r, c)`. -/
theorem rows_bcast {M N : Nat} (hN : N ≠ 1) (w : (⟨2, ![1, N]⟩ : Shape).Idx → α)
    (h : (⟨2, ![1, N]⟩ : Shape).BroadcastsInDim ⟨2, ![M, N]⟩ ![0, 1]) (r : Fin M) (c : Fin N) :
    broadcastInDim ⟨2, ![M, N]⟩ ![0, 1] h w (ix2 r c) = w (ix2 0 c) :=
  broadcastInDim_apply ![0, 1] h w (ix2 r c) (ix2 0 c) (fun a => match a with
    | ⟨0, _⟩ => by show 0 = (if (1 : ℕ) = 1 then 0 else r.val); rw [if_pos rfl]
    | ⟨1, _⟩ => by show c.val = (if N = 1 then 0 else c.val); rw [if_neg hN])

end Cert.LibRowBroadcast

end
-- ==== Proof.RefAffine.lean ====
/-
  A host affine layer is the specification's affine layer.

  A host `dot_general` of plain dimension numbers followed by the addition of a bias vector, broadcast along a
  new leading axis and repeated down the rows, is entry by entry `∑ₖ A(r,k)·W(k,c) + v c`: the affine layer
  `Dgn.affine A W (v laid out as a row)`. Stated for any operands, so it serves both graph layers.
-/
import proofs.«154626_j4801773437364_1_alg».proof.Proof.LibPlainDot
import proofs.«154626_j4801773437364_1_alg».proof.Proof.LibRowBroadcast
import proofs.«154626_j4801773437364_1_alg».proof.Proof.Spec

noncomputable section

namespace Cert.Dgn

open Idealize.ShloMosaic Idealize.ShloMosaic.ValueIdx

/-- A host product of plain dimension numbers plus a bias vector repeated down the rows is the affine layer on the
    bias laid out as a row. -/
theorem dot_add_bias {M K N : Nat} (hN : N ≠ 1) (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (A : FVec Ideal ⟨2, ![M, K]⟩ .f32) (W : FVec Ideal ⟨2, ![K, N]⟩ .f32) (v : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral D none A W) (broadcastInDim ⟨2, ![M, N]⟩ ![0, 1] h2 (broadcastInDim ⟨2, ![1, N]⟩ ![1] h1 v))
      = affine A W (shapeCast ⟨2, ![1, N]⟩ v hc) := by
  funext i
  obtain ⟨r, c, rfl⟩ : ∃ (r : Fin M) (c : Fin N), i = ix2 r c := ⟨i 0, i 1, eq_ix2 i⟩
  rw [affine_apply]
  unfold affineAt
  refine (addf_apply _ _ _).trans (congrArg₂ (· + ·) ?_ ?_)
  · exact LibPlainDot.dotGeneral_plain_apply D hlc hrc hln hrn hlb hrb none _ A W r c
  · rw [LibRowBroadcast.rows_bcast hN, LibRowBroadcast.row_bcast, LibRowBroadcast.row_cast]

end Cert.Dgn

end
-- ==== Proof.LibAffineFold.lean ====
/-
  Folding an affine normalisation into a scale and a shift, over the extended reals.

  For a REAL scale `s`, centre `μ` and shift `β`, and ANY extended real `h`,
      (h - μ) · s + β  =  h · s + (β - μ · s).
  On the reals this is distributivity. It survives an infinite `h`: both sides are then the infinity of
  the sign of `h · s` (or `β` when `s = 0`), because every other term is real. It does NOT survive an
  infinite scale — `(2 - 1) · ⊤ = ⊤` while `2 · ⊤ + (0 - 1 · ⊤) = ⊤ + ⊥ = ⊥` — which is why the scale
  has to be known real.
-/
import Mathlib.Data.EReal.Operations
import Mathlib.Data.EReal.Inv

namespace Cert.LibAffineFold

/-- `(h - μ) · s + β = h · s + (β - μ · s)` for real `s μ β` and any extended real `h`. -/
theorem fold_scale_shift (h : EReal) (s μ β : ℝ) :
    (h - (μ : EReal)) * (s : EReal) + (β : EReal) = h * (s : EReal) + ((β : EReal) - (μ : EReal) * (s : EReal)) := by
  have hr : ((β : EReal) - (μ : EReal) * (s : EReal)) = ((β - μ * s : ℝ) : EReal) := by
    rw [← EReal.coe_mul, ← EReal.coe_sub]
  rw [hr]
  induction h using EReal.rec with
  | bot =>
    rw [EReal.bot_sub]
    rcases lt_trichotomy s 0 with hs | hs | hs
    · rw [EReal.bot_mul_coe_of_neg hs, EReal.top_add_coe, EReal.top_add_coe]
    · subst hs; simp
    · rw [EReal.bot_mul_coe_of_pos hs, EReal.bot_add, EReal.bot_add]
  | coe x =>
    rw [← EReal.coe_sub, ← EReal.coe_mul, ← EReal.coe_add, ← EReal.coe_mul, ← EReal.coe_add]
    congr 1; ring
  | top =>
    rw [EReal.top_sub_coe]
    rcases lt_trichotomy s 0 with hs | hs | hs
    · rw [EReal.top_mul_coe_of_neg hs, EReal.bot_add, EReal.bot_add]
    · subst hs; simp
    · rw [EReal.top_mul_coe_of_pos hs, EReal.top_add_coe, EReal.top_add_coe]

end Cert.LibAffineFold
-- ==== Proof.RefHead.lean ====
/-
  The reference's head is the specification's head with the normalisation folded.

  After its second graph layer the reference normalises, `(H − μ)·s + β` with `s = γ·rsqrt(σ² + ε)`, rectifies,
  applies a dense layer, rectifies, and applies a second dense layer. The kernel instead multiplies by `s` and
  adds the shift `β − μ·s`. Where `s`, `μ` and `β` are real numbers the two agree for EVERY extended real `H`
  (`LibAffineFold.fold_scale_shift`); everything after the normalisation is the same function of it. The bias
  vectors the reference broadcasts along a new leading axis are the rows the kernel reshapes them into.
-/
import proofs.«154626_j4801773437364_1_alg».proof.Proof.Gen.ReferenceIdeal.Read
import proofs.«154626_j4801773437364_1_alg».proof.Proof.RefAffine
import proofs.«154626_j4801773437364_1_alg».proof.Proof.LibAffineFold

noncomputable section

namespace Cert.ReferenceIdeal.HeadValue

open Idealize.ShloMosaic Idealize.ShloMosaic.ValueIdx
open Cert.ReferenceIdeal Cert.ReferenceIdeal.Gen Cert.ReferenceIdeal.Read

/-- The normalised features, as the reference computes them from the second layer's output `H`. -/
def normalised (H : FVec Ideal S100000x128 .f32) (x9 x10 x11 x12 : FVec Ideal S128 .f32) : FVec Ideal S100000x128 .f32 :=
  addf (mulf (subf H (val_main_v63 (F := Ideal) x11)) (val_main_v70 (F := Ideal) x9 x12)) (val_main_v73 (F := Ideal) x10)

/-- Rectified. -/
def hidden (H : FVec Ideal S100000x128 .f32) (x9 x10 x11 x12 : FVec Ideal S128 .f32) : FVec Ideal S100000x128 .f32 :=
  select (cmpf .oge (normalised H x9 x10 x11 x12) (val_main_v75 (F := Ideal))) (normalised H x9 x10 x11 x12)
    (mulf (val_main_v77 (F := Ideal)) (normalised H x9 x10 x11 x12))

/-- The first dense layer. -/
def dense1 (H : FVec Ideal S100000x128 .f32) (x9 x10 x11 x12 : FVec Ideal S128 .f32) (x13 : FVec Ideal S128x90 .f32)
    (x14 : FVec Ideal S90 .f32) : FVec Ideal S100000x90 .f32 :=
  addf (Host.dotGeneral dot_S100000x128_S128x90_S100000x90_1_0_0_1_n_n none (hidden H x9 x10 x11 x12) x13)
    (val_main_v82 (F := Ideal) x14)

/-- Rectified. -/
def hidden2 (H : FVec Ideal S100000x128 .f32) (x9 x10 x11 x12 : FVec Ideal S128 .f32) (x13 : FVec Ideal S128x90 .f32)
    (x14 : FVec Ideal S90 .f32) : FVec Ideal S100000x90 .f32 :=
  select (cmpf .oge (dense1 H x9 x10 x11 x12 x13 x14) (val_main_v84 (F := Ideal))) (dense1 H x9 x10 x11 x12 x13 x14)
    (mulf (val_main_v86 (F := Ideal)) (dense1 H x9 x10 x11 x12 x13 x14))

/-- The reference's head as a function of the second layer's output. -/
def refHead (H : FVec Ideal S100000x128 .f32) (x9 x10 x11 x12 : FVec Ideal S128 .f32) (x13 : FVec Ideal S128x90 .f32)
    (x14 : FVec Ideal S90 .f32) (x15 : FVec Ideal S90x40 .f32) (x16 : FVec Ideal S40 .f32) : FVec Ideal S100000x40 .f32 :=
  addf (Host.dotGeneral dot_S100000x90_S90x40_S100000x40_1_0_0_1_n_n none (hidden2 H x9 x10 x11 x12 x13 x14) x15)
    (val_main_v91 (F := Ideal) x16)

/-- A bias vector broadcast along a new leading axis and down the rows, read at `(r, c)`. -/
theorem rows128 (v : FVec Ideal S128 .f32) (r : Fin 100000) (k : Fin 128) :
    broadcastInDim S100000x128 ![0, 1] bcast_S1x128_S100000x128_0_1 (broadcastInDim S1x128 ![1] bcast_S128_S1x128_1 v) (ix2 r k)
      = v (ix1 k) :=
  (LibRowBroadcast.rows_bcast (by decide) _ _ r k).trans (LibRowBroadcast.row_bcast v _ k)

/-- The normalised entry `(r, k)`. -/
theorem normalised_apply (H : FVec Ideal S100000x128 .f32) (x9 x10 x11 x12 : FVec Ideal S128 .f32) (r : Fin 100000) (k : Fin 128) :
    normalised H x9 x10 x11 x12 (ix2 r k)
      = (H (ix2 r k) - x11 (ix1 k)) * val_main_v68 (F := Ideal) x9 x12 (ix1 k) + x10 (ix1 k) := by
  unfold normalised val_main_v63 val_main_v62 val_main_v70 val_main_v69 val_main_v73 val_main_v72
  exact (addf_apply _ _ _).trans (congrArg₂ (· + ·)
    ((mulf_apply _ _ _).trans (congrArg₂ (· * ·) ((subf_apply _ _ _).trans (congrArg (_ - ·) (rows128 x11 r k))) (rows128 _ r k)))
    (rows128 x10 r k))

/-- The rectified entries are the rectifier of the entries. -/
theorem hidden_apply (H : FVec Ideal S100000x128 .f32) (x9 x10 x11 x12 : FVec Ideal S128 .f32) (i : S100000x128.Idx) :
    hidden H x9 x10 x11 x12 i = Dgn.lrelu (normalised H x9 x10 x11 x12 i) := rfl

theorem hidden2_apply (H : FVec Ideal S100000x128 .f32) (x9 x10 x11 x12 : FVec Ideal S128 .f32) (x13 : FVec Ideal S128x90 .f32)
    (x14 : FVec Ideal S90 .f32) (i : S100000x90.Idx) :
    hidden2 H x9 x10 x11 x12 x13 x14 i = Dgn.lrelu (dense1 H x9 x10 x11 x12 x13 x14 i) := rfl

/-- THE HEAD: for a real scale, centre and shift the reference's head is the specification's head of the folded
    scale row `s` and shift row `β − μ·s`. -/
theorem refHead_eq (H : FVec Ideal S100000x128 .f32) (x9 x10 x11 x12 : FVec Ideal S128 .f32) (x13 : FVec Ideal S128x90 .f32)
    (x14 : FVec Ideal S90 .f32) (x15 : FVec Ideal S90x40 .f32) (x16 : FVec Ideal S40 .f32)
    (hs : ∀ k : Fin 128, ∃ s : ℝ, val_main_v68 (F := Ideal) x9 x12 (ix1 k) = (s : EReal))
    (hμ : ∀ k : Fin 128, ∃ μ : ℝ, x11 (ix1 k) = (μ : EReal))
    (hβ : ∀ k : Fin 128, ∃ β : ℝ, x10 (ix1 k) = (β : EReal))
    (hc128 : S128.ShapeCasts S1x128) (hc90 : S90.ShapeCasts S1x90) (hc40 : S40.ShapeCasts S1x40) :
    refHead H x9 x10 x11 x12 x13 x14 x15 x16
      = Dgn.head H (shapeCast S1x128 (val_main_v68 (F := Ideal) x9 x12) hc128)
          (shapeCast S1x128 (subf x10 (mulf x11 (val_main_v68 (F := Ideal) x9 x12))) hc128)
          x13 (shapeCast S1x90 x14 hc90) x15 (shapeCast S1x40 x16 hc40) := by
  funext i
  obtain ⟨r, c, rfl⟩ : ∃ (r : Fin 100000) (c : Fin 40), i = ix2 r c := ⟨i 0, i 1, eq_ix2 i⟩
  rw [Dgn.head_apply]
  unfold refHead Dgn.headAt
  refine (addf_apply _ _ _).trans (congrArg₂ (· + ·) ?_ ?_)
  swap
  · unfold val_main_v91 val_main_v90
    rw [LibRowBroadcast.rows_bcast (by decide), LibRowBroadcast.row_bcast, LibRowBroadcast.row_cast]
  refine (LibPlainDot.dotGeneral_plain_apply dot_S100000x90_S90x40_S100000x40_1_0_0_1_n_n rfl rfl rfl rfl rfl rfl none _ _ _ r c).trans
    (Finset.sum_congr rfl fun j _ => congrArg (· * _) ?_)
  rw [hidden2_apply]
  refine congrArg Dgn.lrelu ?_
  unfold dense1
  refine (addf_apply _ _ _).trans (congrArg₂ (· + ·) ?_ ?_)
  swap
  · unfold val_main_v82 val_main_v81
    rw [LibRowBroadcast.rows_bcast (by decide), LibRowBroadcast.row_bcast, LibRowBroadcast.row_cast]
  refine (LibPlainDot.dotGeneral_plain_apply dot_S100000x128_S128x90_S100000x90_1_0_0_1_n_n rfl rfl rfl rfl rfl rfl none _ _ _ r j).trans
    (Finset.sum_congr rfl fun k _ => congrArg (· * _) ?_)
  rw [hidden_apply, normalised_apply]
  unfold Dgn.hiddenAt
  refine congrArg Dgn.lrelu ?_
  rw [LibRowBroadcast.row_cast, LibRowBroadcast.row_cast]
  obtain ⟨s, es⟩ := hs k
  obtain ⟨μ, eμ⟩ := hμ k
  obtain ⟨β, eβ⟩ := hβ k
  show (H (ix2 r k) - x11 (ix1 k)) * val_main_v68 (F := Ideal) x9 x12 (ix1 k) + x10 (ix1 k)
    = H (ix2 r k) * val_main_v68 (F := Ideal) x9 x12 (ix1 k) + (x10 (ix1 k) - x11 (ix1 k) * val_main_v68 (F := Ideal) x9 x12 (ix1 k))
  rw [es, eμ, eβ]
  exact LibAffineFold.fold_scale_shift _ s μ β

end Cert.ReferenceIdeal.HeadValue

end
-- ==== Proof.RefValue.lean ====
/-
  The reference, layer by layer, as the specification's functions.

  The reference is: aggregate the neighbours' features with the time-decayed edge coefficients, an affine layer;
  aggregate again (the same gather, scaling and scatter-add, now of 128 columns), a second affine layer; the head.
  Each affine layer is a host product plus a bias vector repeated down the rows, that is `Dgn.affine` of the
  aggregated features, the weights and the bias laid out as a row. The aggregations are kept as they are printed:
  the kernel's program performs the very same host operations, so they are never opened.
  With real normalisation parameters and a non-negative variance the scale `γ·rsqrt(σ² + ε)` is real (`ε > 0`
  keeps the root's argument positive), which is what the head's equation needs.
-/
import proofs.«154626_j4801773437364_1_alg».proof.Proof.RefHead

noncomputable section

namespace Cert.ReferenceIdeal.LayerValue

open Idealize.ShloMosaic Idealize.ShloMosaic.ValueIdx
open Cert.ReferenceIdeal Cert.ReferenceIdeal.Gen Cert.ReferenceIdeal.Read Cert.ReferenceIdeal.HeadValue

/-- The second aggregation as a function of the first layer's output `h`: gather the source rows, scale each by its
    edge's coefficient, add into the destination rows. -/
def aggregate2 (h : FVec Ideal S100000x128 .f32) (x1 : IVec S2x1600000 32) (x2 : FVec Ideal S1600000 .f32)
    (x3 : FVec Ideal S100000 .f32) (x4 : FVec Ideal S1600000 .f32) : FVec Ideal S100000x128 .f32 :=
  Host.scatterAdd scatter_S100000x128_S1600000x1_S1600000x128_1_0_0_1 (val_main_v55 (F := Ideal)) (val_main_v56 (F := Ideal) x1)
    (mulf (Host.gather gather_S100000x128_S1600000x1_S1600000x128_1_0_n_n_0_1_1128 h (val_main_v50 (F := Ideal) x1))
      (val_main_v53 (F := Ideal) x1 x2 x3 x4))

/-- The first layer. -/
theorem layer1 (x0 : FVec Ideal S100000x64 .f32) (x1 : IVec S2x1600000 32) (x2 : FVec Ideal S1600000 .f32)
    (x3 : FVec Ideal S100000 .f32) (x4 : FVec Ideal S1600000 .f32) (x5 : FVec Ideal S64x128 .f32) (x6 : FVec Ideal S128 .f32) (hc : S128.ShapeCasts S1x128) :
    val_main_v32 (F := Ideal) x0 x1 x2 x3 x4 x5 x6
      = Dgn.affine (val_main_v28 (F := Ideal) x0 x1 x2 x3 x4) x5 (shapeCast S1x128 x6 hc) := by
  unfold val_main_v32 val_main_v29 val_main_v31 val_main_v30
  exact Dgn.dot_add_bias (by decide) dot_S100000x64_S64x128_S100000x128_1_0_0_1_n_n rfl rfl rfl rfl rfl rfl _ _ _ _ _ hc

/-- The second layer. -/
theorem layer2 (x0 : FVec Ideal S100000x64 .f32) (x1 : IVec S2x1600000 32) (x2 : FVec Ideal S1600000 .f32)
    (x3 : FVec Ideal S100000 .f32) (x4 : FVec Ideal S1600000 .f32) (x5 : FVec Ideal S64x128 .f32) (x6 : FVec Ideal S128 .f32)
    (x7 : FVec Ideal S128x128 .f32) (x8 : FVec Ideal S128 .f32) (hc : S128.ShapeCasts S1x128) :
    val_main_v61 (F := Ideal) x0 x1 x2 x3 x4 x5 x6 x7 x8
      = Dgn.affine (aggregate2 (val_main_v32 (F := Ideal) x0 x1 x2 x3 x4 x5 x6) x1 x2 x3 x4) x7 (shapeCast S1x128 x8 hc) := by
  unfold val_main_v61 val_main_v58 val_main_v60 val_main_v59
  rw [show val_main_v57 (F := Ideal) x0 x1 x2 x3 x4 x5 x6 = aggregate2 (val_main_v32 (F := Ideal) x0 x1 x2 x3 x4 x5 x6) x1 x2 x3 x4 from rfl]
  exact Dgn.dot_add_bias (by decide) dot_S100000x128_S128x128_S100000x128_1_0_0_1_n_n rfl rfl rfl rfl rfl rfl _ _ _ _ _ hc

/-- The folding constant `ε` is a positive real. -/
theorem eps_pos : ∃ e : ℝ, 0 < e ∧ Ideal.ofBits .f32 0x3727C5AC#32 = (e : EReal) := by
  simp [Ideal.ofBits, Ideal.ieee, -EReal.coe_mul]

/-- With a real `γ` and a real non-negative `σ²` the scale `γ · rsqrt(σ² + ε)` is real at every entry. -/
theorem scale_real (x9 x12 : FVec Ideal S128 .f32) (h9 : ∀ k : Fin 128, ∃ r : ℝ, x9 (ix1 k) = (r : EReal))
    (h12 : ∀ k : Fin 128, ∃ r : ℝ, x12 (ix1 k) = (r : EReal) ∧ 0 ≤ r) (k : Fin 128) :
    ∃ s : ℝ, val_main_v68 (F := Ideal) x9 x12 (ix1 k) = (s : EReal) := by
  obtain ⟨g, hg⟩ := h9 k
  obtain ⟨v, hv, hv0⟩ := h12 k
  obtain ⟨e, he0, he⟩ := eps_pos
  have hpos : 0 < v + e := by linarith
  refine ⟨g * (Real.sqrt (v + e))⁻¹, ?_⟩
  show x9 (ix1 k) * Ideal.rsqrt (x12 (ix1 k) + Ideal.ofBits .f32 0x3727C5AC#32) = _
  rw [hg, hv, he, ← EReal.coe_add, Ideal.rsqrt_coe, if_neg (not_lt.mpr hpos.le), if_neg hpos.ne', ← EReal.coe_mul]

/-- THE REFERENCE'S RESULT as the specification's functions of the arguments, for real normalisation parameters
    and a non-negative variance. -/
theorem result (x0 : FVec Ideal S100000x64 .f32) (x1 : IVec S2x1600000 32) (x2 : FVec Ideal S1600000 .f32)
    (x3 : FVec Ideal S100000 .f32) (x4 : FVec Ideal S1600000 .f32) (x5 : FVec Ideal S64x128 .f32) (x6 : FVec Ideal S128 .f32)
    (x7 : FVec Ideal S128x128 .f32) (x8 x9 x10 x11 x12 : FVec Ideal S128 .f32) (x13 : FVec Ideal S128x90 .f32)
    (x14 : FVec Ideal S90 .f32) (x15 : FVec Ideal S90x40 .f32) (x16 : FVec Ideal S40 .f32)
    (h9 : ∀ k : Fin 128, ∃ r : ℝ, x9 (ix1 k) = (r : EReal)) (h10 : ∀ k : Fin 128, ∃ r : ℝ, x10 (ix1 k) = (r : EReal))
    (h11 : ∀ k : Fin 128, ∃ r : ℝ, x11 (ix1 k) = (r : EReal))
    (h12 : ∀ k : Fin 128, ∃ r : ℝ, x12 (ix1 k) = (r : EReal) ∧ 0 ≤ r)
    (hc128 : S128.ShapeCasts S1x128) (hc90 : S90.ShapeCasts S1x90) (hc40 : S40.ShapeCasts S1x40) :
    val_main_v92 (F := Ideal) x0 x1 x2 x3 x4 x5 x6 x7 x8 x9 x10 x11 x12 x13 x14 x15 x16
      = Dgn.head (Dgn.affine (aggregate2 (Dgn.affine (val_main_v28 (F := Ideal) x0 x1 x2 x3 x4) x5 (shapeCast S1x128 x6 hc128))
            x1 x2 x3 x4) x7 (shapeCast S1x128 x8 hc128))
          (shapeCast S1x128 (val_main_v68 (F := Ideal) x9 x12) hc128)
          (shapeCast S1x128 (subf x10 (mulf x11 (val_main_v68 (F := Ideal) x9 x12))) hc128)
          x13 (shapeCast S1x90 x14 hc90) x15 (shapeCast S1x40 x16 hc40) := by
  rw [show val_main_v92 (F := Ideal) x0 x1 x2 x3 x4 x5 x6 x7 x8 x9 x10 x11 x12 x13 x14 x15 x16
      = refHead (val_main_v61 (F := Ideal) x0 x1 x2 x3 x4 x5 x6 x7 x8) x9 x10 x11 x12 x13 x14 x15 x16 from rfl,
    refHead_eq _ x9 x10 x11 x12 x13 x14 x15 x16 (scale_real x9 x12 h9 h12) h11 h10 hc128 hc90 hc40,
    layer2 x0 x1 x2 x3 x4 x5 x6 x7 x8 hc128, layer1 x0 x1 x2 x3 x4 x5 x6 hc128]

end Cert.ReferenceIdeal.LayerValue

end
-- ==== Proof.KernelFeats.lean ====
/-
  The two aggregations, read off the kernel program's host stretches.

  Before each affine kernel the program's host operations build the aggregated features: the edge endpoints sliced
  out of the index array, a negative index wrapped, the destination's time gathered, the time gap rectified,
  negated and exponentiated, the edge weight multiplied in, the source rows gathered and scaled, and the scaled
  rows added into their destination rows. The buffers' contents after a stretch are the fold of its operations
  from the contents before; reading the fold at the aggregated features' buffer gives a composition of those
  operations on the argument arrays. The reference performs the SAME operations, where they are named
  `val_main_v28` (the first aggregation, of the input features) and `aggregate2` (the second, of the first
  layer's output); the two compositions are equal term by term, so the aggregations are never opened.
-/
import proofs.«154626_j4801773437364_1_alg».proof.Proof.Gen.KernelIdeal.Frame
import proofs.«154626_j4801773437364_1_alg».proof.Proof.RefValue
import Idealize.ShloMosaic.Lib.StableHlo.Run

set_option maxRecDepth 16384

noncomputable section

namespace Cert.KernelIdeal.Value

open Idealize.ShloMosaic Idealize.ShloMosaic.TcCoe Idealize.ShloMosaic.Tactic Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 40000000 in
/-- The first affine kernel's row operand: the first aggregation of the input features. -/
theorem feats1 : V3 m ρ c main_v28 = Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold V3 W3 W2 W1
  after_results <;> rfl

set_option maxHeartbeats 40000000 in
/-- The second affine kernel's row operand: the second aggregation, of what the first affine kernel left. -/
theorem feats2 : V5 m ρ c main_v42
    = Cert.ReferenceIdeal.LayerValue.aggregate2 (W4 m ρ c (Proc.devRef .tc main_v30)) (m ((c : Thread nD τ).loc main_arg1)) (m ((c : Thread nD τ).loc main_arg2)) (m ((c : Thread nD τ).loc main_arg3)) (m ((c : Thread nD τ).loc main_arg4)) := by
  unfold V5 W5
  after_results
  rw [W4_of_ne m ρ c main_v3 (by decide), W4_of_ne m ρ c main_v1 (by decide), W4_of_ne m ρ c main_v16 (by decide)]
  unfold W3 W2 W1
  after_results <;> rfl

end Cert.KernelIdeal.Value

end
-- ==== Proof.KernelValue.lean ====
/-
  The kernel program's result buffer as one function of its arguments.

  The program is: host operations (edge coefficients, the first aggregation), the first affine kernel, host
  operations (the second aggregation), the second affine kernel, host operations (the normalisation folded into a
  scale and a shift), the head's kernel. The buffers' contents after each stretch are a fold from the launch
  memory. Reading the fold back from the result buffer: the head's kernel leaves `Dgn.head` of its seven operand
  arrays; the first of them is what the second affine kernel left, `Dgn.affine` of ITS operands; and so on down
  to the arguments. The host stretches are read as the very operations the reference performs (named there
  `val_main_v28`, `aggregate2`, `val_main_v68`), so the aggregations are never opened.
-/
import proofs.«154626_j4801773437364_1_alg».proof.Proof.Gen.KernelIdeal.Frame
import proofs.«154626_j4801773437364_1_alg».proof.Proof.Layer0
import proofs.«154626_j4801773437364_1_alg».proof.Proof.Layer1
import proofs.«154626_j4801773437364_1_alg».proof.Proof.Layer2
import proofs.«154626_j4801773437364_1_alg».proof.Proof.RefValue
import proofs.«154626_j4801773437364_1_alg».proof.Proof.KernelFeats
import Idealize.ShloMosaic.Lib.StableHlo.Run

set_option maxRecDepth 16384

noncomputable section

namespace Cert.KernelIdeal.Value

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg) (c : Dev nD)

-- the seventeen argument arrays, as launched, on core `c`
set_option quotPrecheck false
local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)
local notation "x₉" => m ((c : Thread nD τ).loc main_arg9)
local notation "x₁₀" => m ((c : Thread nD τ).loc main_arg10)
local notation "x₁₁" => m ((c : Thread nD τ).loc main_arg11)
local notation "x₁₂" => m ((c : Thread nD τ).loc main_arg12)
local notation "x₁₃" => m ((c : Thread nD τ).loc main_arg13)
local notation "x₁₄" => m ((c : Thread nD τ).loc main_arg14)
local notation "x₁₅" => m ((c : Thread nD τ).loc main_arg15)
local notation "x₁₆" => m ((c : Thread nD τ).loc main_arg16)
set_option quotPrecheck true

/-! ## The first affine kernel's operands, and what it leaves -/

theorem weights1 : V3 m ρ c main_arg5 = x₅ := by
  unfold V3 W3 W2 W1
  after_results <;> rfl

theorem bias1 : V3 m ρ c main_v29 = shapeCast S1x128 x₆ shapeCasts_S128_S1x128 := by
  unfold V3 W3 W2 W1
  after_results <;> rfl

/-- The first layer's output, as the first affine kernel leaves it. -/
theorem hidden1 : W4 m ρ c (Proc.devRef .tc main_v30) = (Dgn.affine (Cert.ReferenceIdeal.Read.val_main_v28 (F := Ideal) x₀ x₁ x₂ x₃ x₄) x₅ (shapeCast S1x128 x₆ shapeCasts_S128_S1x128)) := by
  refine (W4_arr m ρ c 3).trans ((Layer0.result (V3 m ρ) c).trans ?_)
  rw [feats1, weights1, bias1]

/-! ## The second affine kernel's operands, and what it leaves -/

theorem weights2 : V5 m ρ c main_arg7 = x₇ := by
  unfold V5 W5
  after_results
  rw [W4_of_ne m ρ c main_arg7 (by decide)]
  unfold W3 W2 W1
  after_results <;> rfl

theorem bias2 : V5 m ρ c main_v43 = shapeCast S1x128 x₈ shapeCasts_S128_S1x128 := by
  unfold V5 W5
  after_results
  rw [W4_of_ne m ρ c main_arg8 (by decide)]
  unfold W3 W2 W1
  after_results <;> rfl

/-- The second layer's output, as the second affine kernel leaves it. -/
theorem hidden2 : W6 m ρ c (Proc.devRef .tc main_v44) = (Dgn.affine (Cert.ReferenceIdeal.LayerValue.aggregate2 (Dgn.affine (Cert.ReferenceIdeal.Read.val_main_v28 (F := Ideal) x₀ x₁ x₂ x₃ x₄) x₅ (shapeCast S1x128 x₆ shapeCasts_S128_S1x128)) x₁ x₂ x₃ x₄) x₇ (shapeCast S1x128 x₈ shapeCasts_S128_S1x128)) := by
  refine (W6_arr m ρ c 3).trans ((Layer1.result (V5 m ρ) c).trans ?_)
  rw [feats2, weights2, bias2, hidden1]

/-! ## The head's operands, and the result -/

/-- An argument that no host operation and no kernel writes, read after the second kernel, is as launched. -/
macro "kept_argument" r:term : tactic => `(tactic| (
  rw [W6_of_ne _ _ _ $r (by decide)]
  unfold W5
  after_results
  rw [W4_of_ne _ _ _ $r (by decide)]
  unfold W3 W2 W1
  after_results <;> rfl))

theorem kept9 : W6 m ρ c (Proc.devRef .tc main_arg9) = x₉ := by kept_argument main_arg9
theorem kept10 : W6 m ρ c (Proc.devRef .tc main_arg10) = x₁₀ := by kept_argument main_arg10
theorem kept11 : W6 m ρ c (Proc.devRef .tc main_arg11) = x₁₁ := by kept_argument main_arg11
theorem kept12 : W6 m ρ c (Proc.devRef .tc main_arg12) = x₁₂ := by kept_argument main_arg12
theorem kept13 : W6 m ρ c (Proc.devRef .tc main_arg13) = x₁₃ := by kept_argument main_arg13
theorem kept14 : W6 m ρ c (Proc.devRef .tc main_arg14) = x₁₄ := by kept_argument main_arg14
theorem kept15 : W6 m ρ c (Proc.devRef .tc main_arg15) = x₁₅ := by kept_argument main_arg15
theorem kept16 : W6 m ρ c (Proc.devRef .tc main_arg16) = x₁₆ := by kept_argument main_arg16

theorem head_in : V7 m ρ c main_v44 = W6 m ρ c (Proc.devRef .tc main_v44) := by
  unfold V7 W7
  after_results <;> rfl

theorem scale_row : V7 m ρ c main_v51 = shapeCast S1x128 (Cert.ReferenceIdeal.Read.val_main_v68 (F := Ideal) x₉ x₁₂) shapeCasts_S128_S1x128 := by
  unfold V7 W7
  after_results
  rw [kept9, kept12]
  rfl

theorem shift_row : V7 m ρ c main_v52
    = shapeCast S1x128 (subf (F := Ideal) (s := S128) (φ := .f32) x₁₀ (mulf (F := Ideal) (s := S128) (φ := .f32) x₁₁ (Cert.ReferenceIdeal.Read.val_main_v68 (F := Ideal) x₉ x₁₂))) shapeCasts_S128_S1x128 := by
  unfold V7 W7
  after_results
  rw [kept9, kept10, kept11, kept12]
  rfl

theorem dense1_weights : V7 m ρ c main_arg13 = x₁₃ := by
  unfold V7 W7
  after_results
  exact kept13 m ρ c

theorem dense1_bias : V7 m ρ c main_v53 = shapeCast S1x90 x₁₄ shapeCasts_S90_S1x90 := by
  unfold V7 W7
  after_results
  rw [kept14]
  rfl

theorem dense2_weights : V7 m ρ c main_arg15 = x₁₅ := by
  unfold V7 W7
  after_results
  exact kept15 m ρ c

theorem dense2_bias : V7 m ρ c main_v54 = shapeCast S1x40 x₁₆ shapeCasts_S40_S1x40 := by
  unfold V7 W7
  after_results
  rw [kept16]
  rfl

/-- THE RESULT BUFFER after the program, as the specification's functions of the arguments. -/
theorem result : W8 m ρ c (Proc.devRef .tc main_v55)
    = Dgn.head (Dgn.affine (Cert.ReferenceIdeal.LayerValue.aggregate2 (Dgn.affine (Cert.ReferenceIdeal.Read.val_main_v28 (F := Ideal) x₀ x₁ x₂ x₃ x₄) x₅ (shapeCast S1x128 x₆ shapeCasts_S128_S1x128)) x₁ x₂ x₃ x₄) x₇ (shapeCast S1x128 x₈ shapeCasts_S128_S1x128))
        (shapeCast S1x128 (Cert.ReferenceIdeal.Read.val_main_v68 (F := Ideal) x₉ x₁₂) shapeCasts_S128_S1x128)
        (shapeCast S1x128 (subf (F := Ideal) (s := S128) (φ := .f32) x₁₀ (mulf (F := Ideal) (s := S128) (φ := .f32) x₁₁ (Cert.ReferenceIdeal.Read.val_main_v68 (F := Ideal) x₉ x₁₂))) shapeCasts_S128_S1x128)
        x₁₃ (shapeCast S1x90 x₁₄ shapeCasts_S90_S1x90) x₁₅ (shapeCast S1x40 x₁₆ shapeCasts_S40_S1x40) := by
  refine (W8_arr m ρ c 7).trans ((Layer2.result (V7 m ρ) c).trans ?_)
  rw [head_in, scale_row, shift_row, dense1_weights, dense1_bias, dense2_weights, dense2_bias, hidden2]

/-! ## The run, with the result buffer read -/

set_option backward.isDefEq.respectTransparency.types false in
/-- Every weakly fair execution of the program terminates, nothing faulting, with the result buffer at the fold's
    value and the argument arrays as launched: the launch over the program's segments, the last thread state read
    against the final state. -/
theorem run : θ_run defs (onTc (τ := τ) (main (F := Ideal))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.Value

end
-- ==== Proof.PreDecode.lean ====
/-
  What the precondition says about the normalisation's parameters.

  The precondition is one conjunction: `|x| < +∞` at every entry of every float input, and `σ² ≥ 0` at every
  entry of the running variance. Read at the four parameter vectors of the normalisation it says that the
  scale `γ`, the shift `β`, the centre `μ` and the variance `σ²` are REAL at every entry, and the variance
  non-negative. That is all the equivalence needs of it.
-/
import proofs.«154626_j4801773437364_1_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Idealize.ShloMosaic Idealize.ShloMosaic.ValueIdx Cert.Pre_finite_inputs Cert.Pre_finite_inputs.Gen

instance : Subsingleton S_.Idx := ⟨fun a b => funext fun d => d.elim0⟩

/-- An extended real whose absolute value is below the `+∞` word is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- A real number at or above the zero word is non-negative. -/
theorem nonneg_of_ge_zero (r : ℝ) (h : Ideal.cmp .oge (r : EReal) (Ideal.ofBits .f32 0x00000000#32) = 1#1) : 0 ≤ r := by
  have hz : Ideal.ofBits .f32 0x00000000#32 = (0 : EReal) := by simp [Ideal.ofBits, Ideal.ieee]
  rw [hz] at h
  by_contra hneg
  have hn : ¬ ((0 : EReal) ≤ (r : EReal)) := by exact_mod_cast hneg
  simp [Ideal.cmp, hn] at h

/-- THE DECODING: under the precondition the four parameter vectors are real at every entry, the variance
    non-negative. -/
theorem params_real (a0 : FVec Ideal S100000x64 .f32) (a1 : IVec S2x1600000 32) (a2 : FVec Ideal S1600000 .f32)
    (a3 : FVec Ideal S100000 .f32) (a4 : FVec Ideal S1600000 .f32) (a5 : FVec Ideal S64x128 .f32) (a6 : FVec Ideal S128 .f32)
    (a7 : FVec Ideal S128x128 .f32) (a8 a9 a10 a11 a12 : FVec Ideal S128 .f32) (a13 : FVec Ideal S128x90 .f32)
    (a14 : FVec Ideal S90 .f32) (a15 : FVec Ideal S90x40 .f32) (a16 : FVec Ideal S40 .f32)
    (h : fn (F := Ideal) a0 a1 a2 a3 a4 a5 a6 a7 a8 a9 a10 a11 a12 a13 a14 a15 a16 = fun _ => 1#1) :
    (∀ k : Fin 128, ∃ r : ℝ, a9 (ix1 k) = (r : EReal)) ∧ (∀ k : Fin 128, ∃ r : ℝ, a10 (ix1 k) = (r : EReal))
    ∧ (∀ k : Fin 128, ∃ r : ℝ, a11 (ix1 k) = (r : EReal)) ∧ (∀ k : Fin 128, ∃ r : ℝ, a12 (ix1 k) = (r : EReal) ∧ 0 ≤ r) := by
  have e := congrFun h ix0
  unfold fn fn_part1 fn_part2 fn_part3 fn_part4 at e
  dsimp only at e
  obtain ⟨e78, e81⟩ := IntOp.andi_eq_one.mp e
  obtain ⟨e73, -⟩ := IntOp.andi_eq_one.mp e78
  obtain ⟨e68, -⟩ := IntOp.andi_eq_one.mp e73
  obtain ⟨e63, -⟩ := IntOp.andi_eq_one.mp e68
  obtain ⟨e58, -⟩ := IntOp.andi_eq_one.mp e63
  obtain ⟨e53, e57⟩ := IntOp.andi_eq_one.mp e58
  obtain ⟨e48, e52⟩ := IntOp.andi_eq_one.mp e53
  obtain ⟨e43, e47⟩ := IntOp.andi_eq_one.mp e48
  obtain ⟨-, e42⟩ := IntOp.andi_eq_one.mp e43
  have r12 : ∀ k : Fin 128, ∃ r : ℝ, a12 (ix1 k) = (r : EReal) := fun k =>
    real_of_abs_lt_inf _ (Host.reduce_andi_all _ _ _ _ ix0 e57 (ix1 k))
  refine ⟨fun k => real_of_abs_lt_inf _ (Host.reduce_andi_all _ _ _ _ ix0 e42 (ix1 k)),
    fun k => real_of_abs_lt_inf _ (Host.reduce_andi_all _ _ _ _ ix0 e47 (ix1 k)),
    fun k => real_of_abs_lt_inf _ (Host.reduce_andi_all _ _ _ _ ix0 e52 (ix1 k)), fun k => ?_⟩
  obtain ⟨r, hr⟩ := r12 k
  refine ⟨r, hr, nonneg_of_ge_zero r ?_⟩
  have := Host.reduce_andi_all _ _ _ _ ix0 e81 (ix1 k)
  rw [← hr]
  exact this

end Cert.Pre_finite_inputs.Decode

end
-- ==== Proof.lean ====
/-
  A two-layer temporal graph network with a dense head: the kernel program against its reference.

  Both programs aggregate each node's neighbours — gather the source rows, scale row `e` by the edge's
  coefficient `w(e)·exp(−max(t_node(dst e) − t_edge(e), 0))`, add into the destination rows — and apply an affine
  layer, twice; then a normalisation by running statistics, a leaky rectifier, a dense layer, a leaky rectifier and
  a dense layer. The aggregations are the same host operations in both programs. The affine layers and the head
  are kernels in one program and host operations in the other; over the extended reals each is one function of its
  operands, entry by entry (`Dgn.affine`, `Dgn.head`): changes of float format are the identity and a product
  accumulated into zero is the plain sum of products. The kernels compute these functions a block of rows at a
  time, and the blocks tile the arrays.

  The one place the two programs differ as formulas is the normalisation: the reference computes
  `(h − μ)·s + β` with `s = γ·rsqrt(σ² + ε)`, the kernel's program folds it into `h·s + (β − μ·s)`. For a real
  `s`, `μ`, `β` these agree at every extended real `h`; for an infinite `s` they do not (at `σ² = −ε` one side is
  `+∞` and the other `−∞`). The precondition therefore asks, beside finite inputs, for a non-negative running
  variance — outside it the reference's own `rsqrt(σ² + ε)` is infinite or undefined — and then `s` is real.

  The three frames are the generated ones (the reference's is its generated run with the result dropped); the
  idealisation rewrote nothing, so there is nothing to preserve.
-/
import proofs.«154626_j4801773437364_1_alg».proof.Defs
import proofs.«154626_j4801773437364_1_alg».proof.Proof.Gen.Kernel
import proofs.«154626_j4801773437364_1_alg».proof.Proof.Gen.Kernel.Skeleton
import proofs.«154626_j4801773437364_1_alg».proof.Proof.Gen.Kernel.Launch
import proofs.«154626_j4801773437364_1_alg».proof.Proof.Gen.Kernel.Points
import proofs.«154626_j4801773437364_1_alg».proof.Proof.Gen.Kernel.Frame
import proofs.«154626_j4801773437364_1_alg».proof.Proof.Gen.KernelIdeal
import proofs.«154626_j4801773437364_1_alg».proof.Proof.Gen.KernelIdeal.Skeleton
import proofs.«154626_j4801773437364_1_alg».proof.Proof.Gen.KernelIdeal.Launch
import proofs.«154626_j4801773437364_1_alg».proof.Proof.Gen.KernelIdeal.Points
import proofs.«154626_j4801773437364_1_alg».proof.Proof.Gen.KernelIdeal.Frame
import proofs.«154626_j4801773437364_1_alg».proof.Proof.Gen.ReferenceIdeal
import proofs.«154626_j4801773437364_1_alg».proof.Proof.Gen.Pre_finite_inputs
import proofs.«154626_j4801773437364_1_alg».proof.Proof.Gen.ReferenceIdeal.Run
import proofs.«154626_j4801773437364_1_alg».proof.Proof.Gen.ReferenceIdeal.Read
import proofs.«154626_j4801773437364_1_alg».proof.Proof.KernelValue
import proofs.«154626_j4801773437364_1_alg».proof.Proof.RefValue
import proofs.«154626_j4801773437364_1_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Run from memories that agree on the arguments, both programs end with the result buffer at the specification's
    functions of the arguments: the kernel program by reading its fold of host stretches and kernels back
    (`Cert.KernelIdeal.Value.result`), the reference by its layers (`Cert.ReferenceIdeal.LayerValue.result`), whose
    head needs the normalisation's parameters real and the variance non-negative — the precondition, decoded. -/
theorem algebraic : Cert.algebraic_KernelIdeal_ReferenceIdeal := by
  intro m ρ m' ρ' hpre hagree
  refine ⟨fun c => Cert.KernelIdeal.Gen.W8 m ρ c (Proc.devRef .tc Cert.KernelIdeal.main_v55), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  obtain ⟨h9, h10, h11, h12⟩ := Cert.Pre_finite_inputs.Decode.params_real _ _ _ _ _ _ _ _ _ _ _ _ _ _ _ _ _ (hpre c)
  rw [Cert.ReferenceIdeal.Read.val_main_v92_eq, e0, e1, e2, e3, e4, e5, e6, e7, e8, e9, e10, e11, e12, e13, e14, e15, e16,
    Cert.ReferenceIdeal.LayerValue.result _ _ _ _ _ _ _ _ _ _ _ _ _ _ _ _ _ h9 h10 h11 h12
      Cert.KernelIdeal.Facts₀.shapeCasts_S128_S1x128 Cert.KernelIdeal.Facts₀.shapeCasts_S90_S1x90
      Cert.KernelIdeal.Facts₀.shapeCasts_S40_S1x40]
  exact (Cert.KernelIdeal.Value.result m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
